-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x384 : Shape := ⟨3, ![2, 2048, 384]⟩
abbrev S2x16384x2048 : Shape := ⟨3, ![2, 16384, 2048]⟩
abbrev S50x384 : Shape := ⟨2, ![50, 384]⟩
abbrev S50 : Shape := ⟨1, ![50]⟩
abbrev S_ : Shape := ⟨0, ![]⟩

class Facts : Prop where
  bcast_S_S2x2048x384 : S_.BroadcastsInDim S2x2048x384 (![] : Fin 0 → Fin S2x2048x384.rank)
  reducesTo_S2x2048x384_S_d0_1_2 : S2x2048x384.ReducesTo [0, 1, 2] S_
  h_S_ : 0 < S_.numel
  bcast_S_S2x16384x2048 : S_.BroadcastsInDim S2x16384x2048 (![] : Fin 0 → Fin S2x16384x2048.rank)
  reducesTo_S2x16384x2048_S_d0_1_2 : S2x16384x2048.ReducesTo [0, 1, 2] S_
  bcast_S_S50x384 : S_.BroadcastsInDim S50x384 (![] : Fin 0 → Fin S50x384.rank)
  reducesTo_S50x384_S_d0_1 : S50x384.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  main_v18

def fn {F : FTy → Type} [FloatOps F] (main_arg0 : FVec F S2x2048x384 .f32) (main_arg1 : FVec F S2x16384x2048 .f32) (main_arg2 : FVec F S50x384 .f32) (main_arg3 : FVec F S50 .f32) : IVec S_ 1 :=
  let main_v0 : FVec F S2x2048x384 .f32 := Host.absf main_arg0
  let main_cst : FVec F S_ .f32 := constant S_ .f32 0x7F800000#32
  let main_v1 : FVec F S2x2048x384 .f32 := broadcastInDim S2x2048x384 ![] bcast_S_S2x2048x384 main_cst
  let main_v2 : IVec S2x2048x384 1 := cmpf .olt main_v0 main_v1
  let main_c : IVec S_ 1 := constantI S_ 1 1#1
  let main_v3 : IVec S_ 1 := (fun x v => Host.reduce IntOp.andi x v reducesTo_S2x2048x384_S_d0_1_2 h_S_) main_v2 main_c
  let main_v4 : FVec F S2x16384x2048 .f32 := Host.absf main_arg1
  let main_cst_0 : FVec F S_ .f32 := constant S_ .f32 0x7F800000#32
  let main_v5 : FVec F S2x16384x2048 .f32 := broadcastInDim S2x16384x2048 ![] bcast_S_S2x16384x2048 main_cst_0
  let main_v6 : IVec S2x16384x2048 1 := cmpf .olt main_v4 main_v5
  let main_c_1 : IVec S_ 1 := constantI S_ 1 1#1
  let main_v7 : IVec S_ 1 := (fun x v => Host.reduce IntOp.andi x v reducesTo_S2x16384x2048_S_d0_1_2 h_S_) main_v6 main_c_1
  let main_v8 : IVec S_ 1 := andi main_v3 main_v7
  let main_v9 : FVec F S50x384 .f32 := Host.absf main_arg2
  let main_cst_2 : FVec F S_ .f32 := constant S_ .f32 0x7F800000#32
  let main_v10 : FVec F S50x384 .f32 := broadcastInDim S50x384 ![] bcast_S_S50x384 main_cst_2
  let main_v11 : IVec S50x384 1 := cmpf .olt main_v9 main_v10
  let main_c_3 : IVec S_ 1 := constantI S_ 1 1#1
  let main_v12 : IVec S_ 1 := (fun x v => Host.reduce IntOp.andi x v reducesTo_S50x384_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_v13 main_v16
-- ==== Kernel.lean ====
abbrev S2x2048x384 : Shape := ⟨3, ![2, 2048, 384]⟩
abbrev S2x16384x2048 : Shape := ⟨3, ![2, 16384, 2048]⟩
abbrev S50x384 : Shape := ⟨2, ![50, 384]⟩
abbrev S50 : Shape := ⟨1, ![50]⟩
abbrev S384x50 : Shape := ⟨2, ![384, 50]⟩
abbrev S2x16384x50 : Shape := ⟨3, ![2, 16384, 50]⟩
abbrev S1x1024x2048 : Shape := ⟨3, ![1, 1024, 2048]⟩
abbrev S1x2048x384 : Shape := ⟨3, ![1, 2048, 384]⟩
abbrev S1x1024x50 : Shape := ⟨3, ![1, 1024, 50]⟩
abbrev S1024x2048 : Shape := ⟨2, ![1024, 2048]⟩
abbrev S2048x384 : Shape := ⟨2, ![2048, 384]⟩
abbrev S1024x384 : Shape := ⟨2, ![1024, 384]⟩
abbrev S1024x50 : Shape := ⟨2, ![1024, 50]⟩
abbrev S1x50 : Shape := ⟨2, ![1, 50]⟩

abbrev nBuf : Space → Nat
  | .hbm => 8
  | .vmem => 8
  | .smem => 0
  | _ => 0

abbrev bufTy : (tb : Table) → Fin (tcTables nBuf tb) → BufTy
  | .hbm, ⟨0, _⟩ => ⟨S2x2048x384, .f32⟩
  | .hbm, ⟨1, _⟩ => ⟨S2x16384x2048, .f32⟩
  | .hbm, ⟨2, _⟩ => ⟨S50x384, .f32⟩
  | .hbm, ⟨3, _⟩ => ⟨S50, .f32⟩
  | .hbm, ⟨4, _⟩ => ⟨S2x2048x384, .bf16⟩
  | .hbm, ⟨5, _⟩ => ⟨S384x50, .f32⟩
  | .hbm, ⟨6, _⟩ => ⟨S384x50, .bf16⟩
  | .hbm, ⟨7, _⟩ => ⟨S2x16384x50, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x384, .bf16⟩
  | .local _ .vmem, ⟨3, _⟩ => ⟨S1x2048x384, .bf16⟩
  | .local _ .vmem, ⟨4, _⟩ => ⟨S384x50, .bf16⟩
  | .local _ .vmem, ⟨5, _⟩ => ⟨S50, .f32⟩
  | .local _ .vmem, ⟨6, _⟩ => ⟨S1x1024x50, .f32⟩
  | .local _ .vmem, ⟨7, _⟩ => ⟨S1x1024x50, .f32⟩
  | _, _ => ⟨S2x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S384x50 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S50x384_S384x50_1_0 : S50x384.Transposes [1, 0] S384x50
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  inb_S384x50_S384x50_0_0 : ∀ a, (![0, 0] : Fin 2 → Nat) a + S384x50.size a ≤ S384x50.size a
  h_S384x50 : 0 < S384x50.numel
  shapeCasts_S384x50_S384x50 : S384x50.ShapeCasts S384x50
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  inb_S1x1024x50_S1x1024x50_0_0_0 : ∀ a, (![0, 0, 0] : Fin 3 → Nat) a + S1x1024x50.size a ≤ S1x1024x50.size a
  h_S1x1024x50 : 0 < S1x1024x50.numel
  shapeCasts_S1x1024x50_S1024x50 : S1x1024x50.ShapeCasts S1024x50
  shapeCasts_S1024x50_S1x1024x50 : S1024x50.ShapeCasts S1x1024x50
  dot_S1024x2048_S2048x384_S1024x384_1_0_0_1_n_n_wf : DotDims.WF S1024x2048 S2048x384 S1024x384 [1] [0] [0] [1] [] []
  dot_S1024x384_S384x50_S1024x50_1_0_0_1_n_n_wf : DotDims.WF S1024x384 S384x50 S1024x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S2x16384x2048.size a
  hwx0_0 : ∀ i : grid0.Coords, EltTy.bits .f32 = 32 ∨ (Rect.block (s := S2x16384x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x384.size a ≤ S2x2048x384.size a
  hwx0_1 : ∀ i : grid0.Coords, EltTy.bits .bf16 = 32 ∨ (Rect.block (s := S2x2048x384) S1x2048x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x50.size a ≤ S384x50.size a
  hwx0_2 : ∀ i : grid0.Coords, EltTy.bits .bf16 = 32 ∨ (Rect.block (s := S384x50) S384x50.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x50.size a ≤ S2x16384x50.size a
  hwx0_4 : ∀ i : grid0.Coords, EltTy.bits .f32 = 32 ∨ (Rect.block (s := S2x16384x50) S1x1024x50.size (cc0_transform_4 i) (hinb0_4 i)).WholeWords (EltTy.packing .f32)

variable [Facts₀]

def dot_S1024x2048_S2048x384_S1024x384_1_0_0_1_n_n : DotDims S1024x2048 S2048x384 S1024x384 where
  lhsContracting := [1]
  rhsContracting := [0]
  lhsNonContracting := [0]
  rhsNonContracting := [1]
  lhsBatch := []
  rhsBatch := []
  wf := dot_S1024x2048_S2048x384_S1024x384_1_0_0_1_n_n_wf
def dot_S1024x384_S384x50_S1024x50_1_0_0_1_n_n : DotDims S1024x384 S384x50 S1024x50 where
  lhsContracting := [1]
  rhsContracting := [0]
  lhsNonContracting := [0]
  rhsNonContracting := [1]
  lhsBatch := []
  rhsBatch := []
  wf := dot_S1024x384_S384x50_S1024x50_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S384x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x50.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x384 : Shape := ⟨3, ![2, 2048, 384]⟩
abbrev S2x16384x2048 : Shape := ⟨3, ![2, 16384, 2048]⟩
abbrev S50x384 : Shape := ⟨2, ![50, 384]⟩
abbrev S50 : Shape := ⟨1, ![50]⟩
abbrev S2x16384x384 : Shape := ⟨3, ![2, 16384, 384]⟩
abbrev S2x16384x50 : Shape := ⟨3, ![2, 16384, 50]⟩
abbrev S1x1x50 : Shape := ⟨3, ![1, 1, 50]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x384, .f32⟩
  | .hbm, ⟨1, _⟩ => ⟨S2x16384x2048, .f32⟩
  | .hbm, ⟨2, _⟩ => ⟨S50x384, .f32⟩
  | .hbm, ⟨3, _⟩ => ⟨S50, .f32⟩
  | .hbm, ⟨4, _⟩ => ⟨S2x16384x384, .f32⟩
  | .hbm, ⟨5, _⟩ => ⟨S2x16384x50, .f32⟩
  | .hbm, ⟨6, _⟩ => ⟨S1x1x50, .f32⟩
  | .hbm, ⟨7, _⟩ => ⟨S2x16384x50, .f32⟩
  | .hbm, ⟨8, _⟩ => ⟨S2x16384x50, .f32⟩
  | _, _ => ⟨S2x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S50_S1x1x50_2 : S50.BroadcastsInDim S1x1x50 (![2] : Fin 1 → Fin S1x1x50.rank)
  bcast_S1x1x50_S2x16384x50_0_1_2 : S1x1x50.BroadcastsInDim S2x16384x50 (![0, 1, 2] : Fin 3 → Fin S2x16384x50.rank)
  dot_S2x16384x2048_S2x2048x384_S2x16384x384_2_1_1_2_0_0_wf : DotDims.WF S2x16384x2048 S2x2048x384 S2x16384x384 [2] [1] [1] [2] [0] [0]
  dot_S2x16384x384_S50x384_S2x16384x50_2_1_01_0_n_n_wf : DotDims.WF S2x16384x384 S50x384 S2x16384x50 [2] [1] [0, 1] [0] [] []

variable [Facts₀]

def dot_S2x16384x2048_S2x2048x384_S2x16384x384_2_1_1_2_0_0 : DotDims S2x16384x2048 S2x2048x384 S2x16384x384 where
  lhsContracting := [2]
  rhsContracting := [1]
  lhsNonContracting := [1]
  rhsNonContracting := [2]
  lhsBatch := [0]
  rhsBatch := [0]
  wf := dot_S2x16384x2048_S2x2048x384_S2x16384x384_2_1_1_2_0_0_wf
def dot_S2x16384x384_S50x384_S2x16384x50_2_1_01_0_n_n : DotDims S2x16384x384 S50x384 S2x16384x50 where
  lhsContracting := [2]
  rhsContracting := [1]
  lhsNonContracting := [0, 1]
  rhsNonContracting := [0]
  lhsBatch := []
  rhsBatch := []
  wf := dot_S2x16384x384_S50x384_S2x16384x50_2_1_01_0_n_n_wf

class Facts : Prop extends Facts₀ where

variable [Facts]
-- ==== Proof.Spec.lean ====
/-
  The function both programs compute, index by index, over the extended reals.

  For a batch b, an atom a and an output channel o,

    logits s t W β (b, a, o) = (∑ c, (∑ r, t (b, a, r) · s (b, r, c)) · W (o, c)) + β o.

  The inner sum is the per-atom embedding: the token-to-atom weights t (a one-hot row per atom in the intended use,
  though nothing here needs that) add up rows of the single embedding s. The outer sum and the bias are a linear
  layer from the 384 embedding channels to the 50 output channels. Both sums are finite sums on the extended reals
  in one fixed grouping (the sum over r inside, the sum over c outside), so no law that could fail at an infinity
  (distributivity, cancellation) is needed to recognise this function in either program.
-/
import Idealize.ShloMosaic.PureOps.Ideal
import Idealize.ShloMosaic.Lib.ValueIdx

noncomputable section

open scoped BigOperators

namespace Cert.AtomLogits

open Idealize.ShloMosaic Idealize.ShloMosaic.ValueIdx

/-- The embedding of atom `a` of batch `b`, channel `c`: the token-to-atom weights of the atom against column `c` of
    the batch's single embedding, summed over the 2048 tokens. -/
def atomEmbed (s : (⟨3, ![2, 2048, 384]⟩ : Shape).Idx → EReal) (t : (⟨3, ![2, 16384, 2048]⟩ : Shape).Idx → EReal)
    (b : Fin 2) (a : Fin 16384) (c : Fin 384) : EReal :=
  ∑ r : Fin 2048, t (ix3 b a r) * s (ix3 b r c)

/-- The logit of atom `a` of batch `b` for output channel `o`: row `o` of the weights against the atom's embedding,
    summed over the 384 channels, plus the channel's bias. -/
def logitAt (s : (⟨3, ![2, 2048, 384]⟩ : Shape).Idx → EReal) (t : (⟨3, ![2, 16384, 2048]⟩ : Shape).Idx → EReal)
    (W : (⟨2, ![50, 384]⟩ : Shape).Idx → EReal) (β : (⟨1, ![50]⟩ : Shape).Idx → EReal)
    (b : Fin 2) (a : Fin 16384) (o : Fin 50) : EReal :=
  (∑ c : Fin 384, atomEmbed s t b a c * W (ix2 o c)) + β (ix1 o)

/-- The whole result array: the logit at each (batch, atom, output channel). -/
def logits (s : (⟨3, ![2, 2048, 384]⟩ : Shape).Idx → EReal) (t : (⟨3, ![2, 16384, 2048]⟩ : Shape).Idx → EReal)
    (W : (⟨2, ![50, 384]⟩ : Shape).Idx → EReal) (β : (⟨1, ![50]⟩ : Shape).Idx → EReal) :
    (⟨3, ![2, 16384, 50]⟩ : Shape).Idx → EReal :=
  fun i => logitAt s t W β (i 0) (i 1) (i 2)

/-- At an index given by its coordinates the array is the logit there. -/
theorem logits_ix3 (s : (⟨3, ![2, 2048, 384]⟩ : Shape).Idx → EReal) (t : (⟨3, ![2, 16384, 2048]⟩ : Shape).Idx → EReal)
    (W : (⟨2, ![50, 384]⟩ : Shape).Idx → EReal) (β : (⟨1, ![50]⟩ : Shape).Idx → EReal)
    (b : Fin 2) (a : Fin 16384) (o : Fin 50) :
    logits s t W β (ix3 b a o) = logitAt s t W β b a o := rfl

end Cert.AtomLogits

end
-- ==== Proof.RefIsSpec.lean ====
/-
  The reference computes `logits`.

  Its program is five host operations: a batched product of the token-to-atom weights with the single embedding
  (contracting the 2048 tokens), a product of the result with the weight matrix (contracting the 384 channels against
  the weights' second axis, so the weights are used as they stand, row o for output channel o), the bias broadcast in
  two steps from [50] over [1, 1, 50] to [2, 16384, 50], and the sum of the two. Read at an index (b, a, o), each
  product is a finite sum over its contracted coordinate and each broadcast reads its operand at the last coordinate,
  so the last stage at (b, a, o) is literally the term `logitAt` names: the same two sums in the same grouping, plus
  the bias at o. Nothing is rearranged.
-/
import proofs.«129406_j90228672954830_2_alg».proof.Proof.Gen.ReferenceIdeal.Read
import proofs.«129406_j90228672954830_2_alg».proof.Proof.Spec

noncomputable section

open scoped BigOperators

namespace Cert.AtomLogits.Reference

open Cert.ReferenceIdeal Cert.ReferenceIdeal.Read Idealize.ShloMosaic Idealize.ShloMosaic.ValueIdx

/-! ## Where each operation reads its operands, by coordinates -/

/-- The first product at (b, a, c) reads the weights at (b, a, r) … -/
theorem weights_at (b : Fin 2) (a : Fin 16384) (c : Fin 384) (r : Fin 2048) :
    lidx_main_v0 (ix3 b a c) r = ix3 b a r :=
  funext fun d => Fin.ext (by match d with | ⟨0, _⟩ => rfl | ⟨1, _⟩ => rfl | ⟨2, _⟩ => rfl)

/-- … and the single embedding at (b, r, c). -/
theorem single_at (b : Fin 2) (a : Fin 16384) (c : Fin 384) (r : Fin 2048) :
    ridx_main_v0 (ix3 b a c) r = ix3 b r c :=
  funext fun d => Fin.ext (by match d with | ⟨0, _⟩ => rfl | ⟨1, _⟩ => rfl | ⟨2, _⟩ => rfl)

/-- The second product at (b, a, o) reads the per-atom embedding at (b, a, c) … -/
theorem embed_at (b : Fin 2) (a : Fin 16384) (o : Fin 50) (c : Fin 384) :
    lidx_main_v1 (ix3 b a o) c = ix3 b a c :=
  funext fun d => Fin.ext (by match d with | ⟨0, _⟩ => rfl | ⟨1, _⟩ => rfl | ⟨2, _⟩ => rfl)

/-- … and the weight matrix at (o, c). -/
theorem matrix_at (b : Fin 2) (a : Fin 16384) (o : Fin 50) (c : Fin 384) :
    ridx_main_v1 (ix3 b a o) c = ix2 o c :=
  funext fun d => Fin.ext (by match d with | ⟨0, _⟩ => rfl | ⟨1, _⟩ => rfl)

/-- The two broadcasts of the bias, composed, read it at the output channel. -/
theorem bias_at (b : Fin 2) (a : Fin 16384) (o : Fin 50) :
    idx_main_v2 (idx_main_v3 (ix3 b a o)) = ix1 o :=
  funext fun d => Fin.ext (by match d with | ⟨0, _⟩ => rfl)

/-! ## The last stage is the logits -/

/-- The reference's result, as a function of its four arguments, is `logits` of them. -/
theorem result_eq (s : (⟨S2x2048x384, .f32⟩ : BufTy).Contents (Elt Ideal)) (t : (⟨S2x16384x2048, .f32⟩ : BufTy).Contents (Elt Ideal))
    (W : (⟨S50x384, .f32⟩ : BufTy).Contents (Elt Ideal)) (β : (⟨S50, .f32⟩ : BufTy).Contents (Elt Ideal)) :
    val_main_v4 (F := Ideal) s t W β = logits s t W β := by
  funext i
  obtain ⟨b, a, o, rfl⟩ : ∃ (b : Fin 2) (a : Fin 16384) (o : Fin 50), i = ix3 b a o := ⟨i 0, i 1, i 2, eq_ix3 i⟩
  rw [logits_ix3, val_main_v4_apply, val_main_v1_apply, val_main_v3_apply, val_main_v2_apply]
  unfold logitAt atomEmbed
  simp only [embed_at, matrix_at, bias_at, val_main_v0_apply, weights_at, single_at]
  rfl

end Cert.AtomLogits.Reference

end
-- ==== Proof.Payload.lean ====
/-
  The kernel body at an index.

  The body works on one tile of 1024 atoms of one batch. It loads the tile's token-to-atom weights x0 [1, 1024, 2048],
  the batch's single embedding x1 [1, 2048, 384], the transposed weight matrix x2 [384, 50] and the bias x3 [50];
  drops the leading unit axes; multiplies weights by embedding into a zero accumulator (contracting the 2048 tokens);
  multiplies the result by the transposed weight matrix into a zero accumulator (contracting the 384 channels); adds the
  bias, broadcast over the 1024 rows; and puts the leading unit axis back. The changes of float format in between are
  the identity on the extended reals. A product into a zero accumulator is, at an output index, the finite sum over the
  contracted coordinate of the products of the operands' entries (0 + x = x holds for every extended real), so at
  (u, p, o) the body's value is

    (∑ c, (∑ r, x0 (0, p, r) · x1 (0, r, c)) · x2 (c, o)) + x3 o.
-/
import proofs.«129406_j90228672954830_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AtomLogits.Body

open Cert.KernelIdeal Cert.KernelIdeal.Gen Idealize.ShloMosaic Idealize.ShloMosaic.ValueIdx

/-! ## The two products, each at an index -/

/-! The operand indices of each product, coordinate by coordinate (the products contract the left operand's columns
    against the right operand's rows and have no batch axis). -/

/-- The row coordinate of the left operand's index is the output's row. -/
theorem gather_lhs_row (j : S1024x384.Idx) (q : dot_S1024x2048_S2048x384_S1024x384_1_0_0_1_n_n.contr.Idx) :
    (dot_S1024x2048_S2048x384_S1024x384_1_0_0_1_n_n.lhsIdx j q 0).val = (j 0).val := by
  unfold DotDims.lhsIdx
  rw [dif_neg (show ¬(0 : Fin S1024x2048.rank) ∈ dot_S1024x2048_S2048x384_S1024x384_1_0_0_1_n_n.lhsBatch by decide),
    dif_pos (show (0 : Fin S1024x2048.rank) ∈ dot_S1024x2048_S2048x384_S1024x384_1_0_0_1_n_n.lhsNonContracting by decide)]
  rfl
/-- The column coordinate of the left operand's index is the contracted coordinate. -/
theorem gather_lhs_col (j : S1024x384.Idx) (q : dot_S1024x2048_S2048x384_S1024x384_1_0_0_1_n_n.contr.Idx) :
    (dot_S1024x2048_S2048x384_S1024x384_1_0_0_1_n_n.lhsIdx j q 1).val = (q ⟨0, by decide⟩).val :=
  dot_S1024x2048_S2048x384_S1024x384_1_0_0_1_n_n.lhsIdx_val_of_single rfl j q
/-- The row coordinate of the right operand's index is the contracted coordinate. -/
theorem gather_rhs_row (j : S1024x384.Idx) (q : dot_S1024x2048_S2048x384_S1024x384_1_0_0_1_n_n.contr.Idx) :
    (dot_S1024x2048_S2048x384_S1024x384_1_0_0_1_n_n.rhsIdx j q 0).val = (q ⟨0, by decide⟩).val :=
  dot_S1024x2048_S2048x384_S1024x384_1_0_0_1_n_n.rhsIdx_val_of_single rfl j q
/-- The column coordinate of the right operand's index is the output's column. -/
theorem gather_rhs_col (j : S1024x384.Idx) (q : dot_S1024x2048_S2048x384_S1024x384_1_0_0_1_n_n.contr.Idx) :
    (dot_S1024x2048_S2048x384_S1024x384_1_0_0_1_n_n.rhsIdx j q 1).val = (j 1).val := by
  unfold DotDims.rhsIdx
  rw [dif_neg (show ¬(1 : Fin S2048x384.rank) ∈ dot_S1024x2048_S2048x384_S1024x384_1_0_0_1_n_n.rhsBatch by decide),
    dif_pos (show (1 : Fin S2048x384.rank) ∈ dot_S1024x2048_S2048x384_S1024x384_1_0_0_1_n_n.rhsNonContracting by decide)]
  rfl

/-- The row coordinate of the left operand's index is the output's row. -/
theorem linear_lhs_row (j : S1024x50.Idx) (q : dot_S1024x384_S384x50_S1024x50_1_0_0_1_n_n.contr.Idx) :
    (dot_S1024x384_S384x50_S1024x50_1_0_0_1_n_n.lhsIdx j q 0).val = (j 0).val := by
  unfold DotDims.lhsIdx
  rw [dif_neg (show ¬(0 : Fin S1024x384.rank) ∈ dot_S1024x384_S384x50_S1024x50_1_0_0_1_n_n.lhsBatch by decide),
    dif_pos (show (0 : Fin S1024x384.rank) ∈ dot_S1024x384_S384x50_S1024x50_1_0_0_1_n_n.lhsNonContracting by decide)]
  rfl
/-- The column coordinate of the left operand's index is the contracted coordinate. -/
theorem linear_lhs_col (j : S1024x50.Idx) (q : dot_S1024x384_S384x50_S1024x50_1_0_0_1_n_n.contr.Idx) :
    (dot_S1024x384_S384x50_S1024x50_1_0_0_1_n_n.lhsIdx j q 1).val = (q ⟨0, by decide⟩).val :=
  dot_S1024x384_S384x50_S1024x50_1_0_0_1_n_n.lhsIdx_val_of_single rfl j q
/-- The row coordinate of the right operand's index is the contracted coordinate. -/
theorem linear_rhs_row (j : S1024x50.Idx) (q : dot_S1024x384_S384x50_S1024x50_1_0_0_1_n_n.contr.Idx) :
    (dot_S1024x384_S384x50_S1024x50_1_0_0_1_n_n.rhsIdx j q 0).val = (q ⟨0, by decide⟩).val :=
  dot_S1024x384_S384x50_S1024x50_1_0_0_1_n_n.rhsIdx_val_of_single rfl j q
/-- The column coordinate of the right operand's index is the output's column. -/
theorem linear_rhs_col (j : S1024x50.Idx) (q : dot_S1024x384_S384x50_S1024x50_1_0_0_1_n_n.contr.Idx) :
    (dot_S1024x384_S384x50_S1024x50_1_0_0_1_n_n.rhsIdx j q 1).val = (j 1).val := by
  unfold DotDims.rhsIdx
  rw [dif_neg (show ¬(1 : Fin S384x50.rank) ∈ dot_S1024x384_S384x50_S1024x50_1_0_0_1_n_n.rhsBatch by decide),
    dif_pos (show (1 : Fin S384x50.rank) ∈ dot_S1024x384_S384x50_S1024x50_1_0_0_1_n_n.rhsNonContracting by decide)]
  rfl

/-- Weights [1024, 2048] times embedding [2048, 384] into zero: at (p, c) the sum over the tokens r of
    weight (p, r) times embedding (r, c). -/
theorem gather_apply (w : FVec Ideal S1024x2048 .bf16) (e : FVec Ideal S2048x384 .bf16) (p : Fin 1024) (c : Fin 384) :
    matmul dot_S1024x2048_S2048x384_S1024x384_1_0_0_1_n_n none w e (constant S1024x384 .f32 0x00000000#32) (ix2 p c)
      = ∑ r : Fin 2048, (w (ix2 p r) : EReal) * (e (ix2 r c) : EReal) := by
  simp only [matmul]
  rw [Ideal.matmul_constant_zero_apply,
    ← Equiv.sum_comp (contrEquiv1 dot_S1024x2048_S2048x384_S1024x384_1_0_0_1_n_n 2048 rfl rfl).symm]
  refine Finset.sum_congr rfl fun k _ => ?_
  have hk := contrEquiv1_symm_val dot_S1024x2048_S2048x384_S1024x384_1_0_0_1_n_n 2048 rfl rfl k
  have el : dot_S1024x2048_S2048x384_S1024x384_1_0_0_1_n_n.lhsIdx (ix2 p c)
      ((contrEquiv1 dot_S1024x2048_S2048x384_S1024x384_1_0_0_1_n_n 2048 rfl rfl).symm k) = ix2 p k :=
    funext fun a => Fin.ext (by
      match a with
      | ⟨0, _⟩ => exact gather_lhs_row _ _
      | ⟨1, _⟩ => exact (gather_lhs_col _ _).trans hk)
  have er : dot_S1024x2048_S2048x384_S1024x384_1_0_0_1_n_n.rhsIdx (ix2 p c)
      ((contrEquiv1 dot_S1024x2048_S2048x384_S1024x384_1_0_0_1_n_n 2048 rfl rfl).symm k) = ix2 k c :=
    funext fun a => Fin.ext (by
      match a with
      | ⟨0, _⟩ => exact (gather_rhs_row _ _).trans hk
      | ⟨1, _⟩ => exact gather_rhs_col _ _)
  rw [el, er]

/-- Per-atom embedding [1024, 384] times transposed weight matrix [384, 50] into zero: at (p, o) the sum over the
    channels c of embedding (p, c) times matrix (c, o). -/
theorem linear_apply (a : FVec Ideal S1024x384 .bf16) (w : FVec Ideal S384x50 .bf16) (p : Fin 1024) (o : Fin 50) :
    matmul dot_S1024x384_S384x50_S1024x50_1_0_0_1_n_n none a w (constant S1024x50 .f32 0x00000000#32) (ix2 p o)
      = ∑ c : Fin 384, (a (ix2 p c) : EReal) * (w (ix2 c o) : EReal) := by
  simp only [matmul]
  rw [Ideal.matmul_constant_zero_apply,
    ← Equiv.sum_comp (contrEquiv1 dot_S1024x384_S384x50_S1024x50_1_0_0_1_n_n 384 rfl rfl).symm]
  refine Finset.sum_congr rfl fun k _ => ?_
  have hk := contrEquiv1_symm_val dot_S1024x384_S384x50_S1024x50_1_0_0_1_n_n 384 rfl rfl k
  have el : dot_S1024x384_S384x50_S1024x50_1_0_0_1_n_n.lhsIdx (ix2 p o)
      ((contrEquiv1 dot_S1024x384_S384x50_S1024x50_1_0_0_1_n_n 384 rfl rfl).symm k) = ix2 p k :=
    funext fun a => Fin.ext (by
      match a with
      | ⟨0, _⟩ => exact linear_lhs_row _ _
      | ⟨1, _⟩ => exact (linear_lhs_col _ _).trans hk)
  have er : dot_S1024x384_S384x50_S1024x50_1_0_0_1_n_n.rhsIdx (ix2 p o)
      ((contrEquiv1 dot_S1024x384_S384x50_S1024x50_1_0_0_1_n_n 384 rfl rfl).symm k) = ix2 k o :=
    funext fun a => Fin.ext (by
      match a with
      | ⟨0, _⟩ => exact (linear_rhs_row _ _).trans hk
      | ⟨1, _⟩ => exact linear_rhs_col _ _)
  rw [el, er]

/-! ## The body's stored value at an index -/

/-- What the body stores at (u, p, o), from its four loaded blocks. -/
theorem stored_apply (x0 : Vec Ideal S1x1024x2048 .f32) (x1 : Vec Ideal S1x2048x384 .bf16) (x2 : Vec Ideal S384x50 .bf16)
    (x3 : Vec Ideal S50 .f32) (u : Fin 1) (p : Fin 1024) (o : Fin 50) :
    k0_pay1 x0 x1 x2 x3 (ix3 u p o)
      = (∑ c : Fin 384, (∑ r : Fin 2048, (x0 (ix3 (0 : Fin 1) p r) : EReal) * (x1 (ix3 (0 : Fin 1) r c) : EReal))
          * (x2 (ix2 c o) : EReal)) + (x3 (ix1 o) : EReal) := by
  unfold k0_pay1
  rw [shapeCast_ab_1ab_apply, addf_apply, linear_apply, broadcastTo_1b_ab_apply, shapeCast_a_1a_apply]
  refine congrArg (· + _) (Finset.sum_congr rfl fun c _ => ?_)
  rw [truncf_apply, gather_apply, shapeCast_self]
  refine congrArg (· * _) (Finset.sum_congr rfl fun r _ => ?_)
  rw [truncf_apply, shapeCast_1ab_ab_apply, shapeCast_1ab_ab_apply]

end Cert.AtomLogits.Body

end
-- ==== Proof.Staged.lean ====
/-
  The two arrays the host prepares before the region, read at an index.

  Before the kernel runs the host casts the single embedding to bf16, and transposes the weight matrix from [50, 384]
  to [384, 50] and casts that to bf16. On the extended reals a change of float format is the identity. So the region
  finds, in the first array, the single embedding itself, entry for entry, and in the second, at (c, o), the weight
  matrix's entry (o, c). The token-to-atom weights and the bias reach the region untouched.
-/
import proofs.«129406_j90228672954830_2_alg».proof.Proof.Gen.KernelIdeal.Frame
import Idealize.ShloMosaic.Lib.ValueIdx
import Idealize.ShloMosaic.Lib.ValueLayout
import Idealize.ShloMosaic.Lib.StableHlo.Run

noncomputable section

namespace Cert.AtomLogits.Staged

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The array the embedding's window reads is the single embedding with its format changed. -/
theorem embedding_staged (c : Dev nD) :
    @Eq (S2x2048x384.Idx → EReal) (V m c main_v0)
      (truncf (F := Ideal) .bf16 (m ((c : Thread nD τ).loc main_arg0) : FVec Ideal S2x2048x384 .f32) Facts₀.bitsLt_bf16_f32) := by
  dsimp only [V, hostOps0]; after_results

/-- So at every index it holds the single embedding's entry. -/
theorem embedding_staged_apply (c : Dev nD) (i : S2x2048x384.Idx) :
    (V m c main_v0 : S2x2048x384.Idx → EReal) i = (m ((c : Thread nD τ).loc main_arg0) : S2x2048x384.Idx → EReal) i :=
  congrFun (embedding_staged m c) i

/-- The array the weight matrix's window reads is the weight matrix transposed, with its format changed. -/
theorem matrix_staged (c : Dev nD) :
    @Eq (S384x50.Idx → EReal) (V m c main_v2)
      (truncf (F := Ideal) .bf16 (transpose S384x50 [1, 0] (m ((c : Thread nD τ).loc main_arg2) : FVec Ideal S50x384 .f32)
          Facts₀.transposes_S50x384_S384x50_1_0) Facts₀.bitsLt_bf16_f32) := by
  dsimp only [V, hostOps0]; after_results

/-- So at (k, o) it holds the weight matrix's entry (o, k). -/
theorem matrix_staged_apply (c : Dev nD) (k : Fin 384) (o : Fin 50) :
    (V m c main_v2 : S384x50.Idx → EReal) (ix2 k o) = (m ((c : Thread nD τ).loc main_arg2) : S50x384.Idx → EReal) (ix2 o k) :=
  (congrFun (matrix_staged m c) (ix2 k o)).trans
    (transpose_ix2_apply (m ((c : Thread nD τ).loc main_arg2) : S50x384.Idx → EReal) Facts₀.transposes_S50x384_S384x50_1_0 k o)

end Cert.AtomLogits.Staged

end
-- ==== Proof.Tiles.lean ====
/-
  From tiles to the whole result array.

  The grid has 2 × 16 points; the point with coordinates (b, g) handles batch b and atoms 1024·g … 1024·g + 1023. At that
  point the body is given rows 1024·g … of batch b's token-to-atom weights (all 2048 tokens), the whole of batch b's
  single embedding, the whole transposed weight matrix and the whole bias, and what it stores is written back as the
  tile (b, 1024·g + p, o), p < 1024, o < 50, of the result. Putting the body's value at (0, p, o) beside `logitAt` at
  (b, 1024·g + p, o), the two are the same sums term by term once each block entry is read at its place in its array:
  weights block (0, p, r) is weights (b, 1024·g + p, r); embedding block (0, r, c) is the embedding (b, r, c); the
  staged matrix (c, o) is the weight matrix (o, c); the bias block at o is the bias at o. The 32 tiles are pairwise
  disjoint and every index (b, a, o) of the result lies in the tile of point (b, a / 1024), so after the run the whole
  result array is `logits` of the four argument arrays.
-/
import proofs.«129406_j90228672954830_2_alg».proof.Proof.Gen.KernelIdeal.Value
import proofs.«129406_j90228672954830_2_alg».proof.Proof.Spec
import proofs.«129406_j90228672954830_2_alg».proof.Proof.Payload
import proofs.«129406_j90228672954830_2_alg».proof.Proof.Staged
import Idealize.ShloMosaic.Lib.Pipeline.Value

noncomputable section

open scoped BigOperators

namespace Cert.AtomLogits.Tiles

open Cert.KernelIdeal Cert.KernelIdeal.Gen Cert.AtomLogits
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-! ## Which block each window reads at a point -/

/-- Decided over the 32 grid points: the weights' block follows the result's tile on the batch and atom axes and is the
    whole token axis; the embedding's block follows the tile's batch and is whole otherwise; the matrix and the bias are
    whole; the tile's batch is 0 or 1, its atom group at most 15, and it spans all output channels. -/
theorem tile_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (2 : Fin 3) = 0
    ∧ win0_4.index t (0 : Fin 3) ≤ 1
    ∧ win0_4.index t (1 : Fin 3) ≤ 15 :=
  (by decide +kernel : ∀ t : Fin grid0.N, _)

/-- Every (batch, atom group) is some point's tile. -/
theorem tile_onto : ∀ (q0 : Fin 2) (q1 : Fin 16), ∃ t : Fin cfg0.N, win0_4.index t = ![q0.val, q1.val, 0] :=
  (by decide +kernel : ∀ (q0 : Fin 2) (q1 : Fin 16), ∃ t : Fin grid0.N, win0_4.index t = ![q0.val, q1.val, 0])

/-! ## What a point writes back -/

/-- What point `t` writes back is its tile of `logits` of the argument arrays. -/
theorem flushed_eq (c : Dev nD) (t : Fin cfg0.N) :
    (dats m 0 c).flushed 4 t = ((cfg0.win 4).blk t).view.read (Elt Ideal) (logits (m ((c : Thread nD τ).loc main_arg0)) (m ((c : Thread nD τ).loc main_arg1)) (m ((c : Thread nD τ).loc main_arg2)) (m ((c : Thread nD τ).loc main_arg3))) := by
  rw [Cert.KernelIdeal.Value.flushed4]
  unfold out0_4
  rw [View.canon_unit_zero zeros3]
  simp only [View.ld_unit_zero (S := S1x1024x2048) zeros3, View.ld_unit_zero (S := S1x2048x384) zeros3,
    View.ld_unit_zero (S := S384x50) zeros2, View.ld_unit_zero (S := S50) zeros1]
  obtain ⟨e00, e01, e02, e10, e11, e12, e20, e21, e30, e42, hb, hg⟩ := tile_facts t
  funext j
  obtain ⟨u, p, o, rfl⟩ : ∃ (u : Fin 1) (p : Fin 1024) (o : Fin 50), j = ix3 u p o := ⟨j 0, j 1, j 2, eq_ix3 j⟩
  have hu : u.val = 0 := by omega
  have hp : p.val < 1024 := p.isLt
  -- the stored entry's place in the result array: batch, atom, output channel
  have hplace : ((cfg0.win 4).blk t).view.emb (ix3 u p o)
      = ix3 (⟨win0_4.index t (0 : Fin 3), by omega⟩ : Fin 2) (⟨win0_4.index t (1 : Fin 3) * 1024 + p.val, by omega⟩ : Fin 16384) o := by
    funext a; apply Fin.ext
    match a with
    | ⟨0, _⟩ => show win0_4.index t (0 : Fin 3) * 1 + 1 * u.val = win0_4.index t (0 : Fin 3); omega
    | ⟨1, _⟩ => show win0_4.index t (1 : Fin 3) * 1024 + 1 * p.val = win0_4.index t (1 : Fin 3) * 1024 + p.val; omega
    | ⟨2, _⟩ => show win0_4.index t (2 : Fin 3) * 50 + 1 * o.val = o.val; omega
  -- each input block's entry, read at its place in its array
  have hweights : ∀ r : Fin 2048, (iblk m c 0 t : Vec Ideal S1x1024x2048 .f32) (ix3 (0 : Fin 1) p r)
      = ((m ((c : Thread nD τ).loc main_arg1)) : S2x16384x2048.Idx → EReal)
          (ix3 (⟨win0_4.index t (0 : Fin 3), by omega⟩ : Fin 2) (⟨win0_4.index t (1 : Fin 3) * 1024 + p.val, by omega⟩ : Fin 16384) r) := fun r => by
    show V m c main_arg1 (((cfg0.win 0).blk t).view.emb (ix3 (0 : Fin 1) p r)) = _
    rw [V_main_arg1]
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 1024 + 1 * p.val = win0_4.index t (1 : Fin 3) * 1024 + p.val; omega
    | ⟨2, _⟩ => show win0_0.index t (2 : Fin 3) * 2048 + 1 * r.val = r.val; omega
  have hembed : ∀ (r : Fin 2048) (k : Fin 384), (iblk m c 1 t : Vec Ideal S1x2048x384 .bf16) (ix3 (0 : Fin 1) r k)
      = ((m ((c : Thread nD τ).loc main_arg0)) : S2x2048x384.Idx → EReal) (ix3 (⟨win0_4.index t (0 : Fin 3), by omega⟩ : Fin 2) r k) := fun r k => by
    show (V m c main_v0 : S2x2048x384.Idx → EReal) (((cfg0.win 1).blk t).view.emb (ix3 (0 : Fin 1) r k)) = _
    rw [Staged.embedding_staged_apply]
    refine congrArg _ (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * r.val = r.val; omega
    | ⟨2, _⟩ => show win0_1.index t (2 : Fin 3) * 384 + 1 * k.val = k.val; omega
  have hmatrix : ∀ k : Fin 384, (iblk m c 2 t : Vec Ideal S384x50 .bf16) (ix2 k o)
      = ((m ((c : Thread nD τ).loc main_arg2)) : S50x384.Idx → EReal) (ix2 o k) := fun k => by
    have e : ((cfg0.win 2).blk t).view.emb (ix2 k o) = ix2 k o := funext fun a => Fin.ext (by
      match a with
      | ⟨0, _⟩ => show win0_2.index t (0 : Fin 2) * 384 + 1 * k.val = k.val; omega
      | ⟨1, _⟩ => show win0_2.index t (1 : Fin 2) * 50 + 1 * o.val = o.val; omega)
    show (V m c main_v2 : S384x50.Idx → EReal) (((cfg0.win 2).blk t).view.emb (ix2 k o)) = _
    rw [e, Staged.matrix_staged_apply]
  have hbias : (iblk m c 3 t : Vec Ideal S50 .f32) (ix1 o) = ((m ((c : Thread nD τ).loc main_arg3)) : S50.Idx → EReal) (ix1 o) := by
    show V m c main_arg3 (((cfg0.win 3).blk t).view.emb (ix1 o)) = _
    rw [V_main_arg3]
    refine congrArg _ (funext fun a => Fin.ext ?_)
    match a with
    | ⟨0, _⟩ => show win0_3.index t (0 : Fin 1) * 50 + 1 * o.val = o.val; omega
  show k0_pay1 (iblk m c 0 t) (iblk m c 1 t) (iblk m c 2 t) (iblk m c 3 t) (ix3 u p o)
    = (logits (m ((c : Thread nD τ).loc main_arg0)) (m ((c : Thread nD τ).loc main_arg1)) (m ((c : Thread nD τ).loc main_arg2)) (m ((c : Thread nD τ).loc main_arg3))) (((cfg0.win 4).blk t).view.emb (ix3 u p o))
  rw [hplace, logits_ix3]
  refine (Body.stored_apply (iblk m c 0 t) (iblk m c 1 t) (iblk m c 2 t) (iblk m c 3 t) u p o).trans ?_
  unfold logitAt atomEmbed
  exact congrArg₂ (· + ·) (Finset.sum_congr rfl fun k _ => congrArg₂ (· * ·)
    (Finset.sum_congr rfl fun r _ => congrArg₂ (· * ·) (hweights r) (hembed r k)) (hmatrix k)) hbias

/-! ## The tiles cover the result -/

/-- An index of the result is in point `t`'s tile iff each coordinate is in the tile's range on its axis. -/
theorem mem_tile (t : Fin cfg0.N) (i : S2x16384x50.Idx) :
    i ∈ ((cfg0.win 4).blk t).view.set ↔ ∀ a : Fin 3, win0_4.index t a * S1x1024x50.size a ≤ (i a).val
      ∧ (i a).val < win0_4.index t a * S1x1024x50.size a + S1x1024x50.size a := by
  show i ∈ ((View.whole main_v3).slice (win0_4.rect t)).set ↔ _
  rw [View.set_slice_whole, Rect.mem_set_unit]
  exact Iff.rfl

/-- Index (b, a, o) lies in the tile of the point with batch b and atom group a / 1024. -/
theorem tiles_cover (i : S2x16384x50.Idx) :
    ∃ t : Fin cfg0.N, (cfg0.win 4).flush t = true ∧ i ∈ ((cfg0.win 4).blk t).view.set := by
  have hi0 : (i 0).val < 2 := (i 0).isLt
  have hi1 : (i 1).val < 16384 := (i 1).isLt
  have hi2 : (i 2).val < 50 := (i 2).isLt
  obtain ⟨t, ht⟩ := tile_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 50 ≤ (i 2).val ∧ (i 2).val < win0_4.index t (2 : Fin 3) * 50 + 50; omega

/-! ## The result array, and the run -/

/-- After the run the result array is `logits` of the argument arrays. -/
theorem result_array (c : Dev nD) : (dats m 0 c).arrAt 4 cfg0.N = (logits (m ((c : Thread nD τ).loc main_arg0)) (m ((c : Thread nD τ).loc main_arg1)) (m ((c : Thread nD τ).loc main_arg2)) (m ((c : Thread nD τ).loc main_arg3))) :=
  (dats m 0 c).arrAt_eq_of_cover 4 (logits (m ((c : Thread nD τ).loc main_arg0)) (m ((c : Thread nD τ).loc main_arg1)) (m ((c : Thread nD τ).loc main_arg2)) (m ((c : Thread nD τ).loc main_arg3))) (fun t _ => flushed_eq m c t) tiles_cover

/-- Every weakly fair execution of the idealized kernel terminates with its result at `logits` of its arguments and
    the arguments unchanged. -/
theorem run : θ_run defs (onTc (τ := τ) (main (F := Ideal))) ⟨m, fun _ => 0, ρ⟩ fun r => ∀ c : Dev nD,
      r.2.mem ((c : Thread nD τ).loc main_v3) = (logits (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩)
    (Cert.KernelIdeal.Value.run_blocks m ρ)

end Cert.AtomLogits.Tiles

end
-- ==== Proof.lean ====
/-
  The kernel and its reference compute the same per-atom logits on the extended reals.

  Arguments: the single embedding s [2, 2048, 384], the token-to-atom weights t [2, 16384, 2048], the weight matrix
  W [50, 384] and the bias β [50]. Both programs end with the array

    logits s t W β (b, a, o) = (∑ c, (∑ r, t (b, a, r) · s (b, r, c)) · W (o, c)) + β o          (Proof/Spec.lean).

  The reference is two products, contracting r and then c, plus the broadcast bias; read at an index its last stage
  is that term as it stands (Proof/RefIsSpec.lean). The kernel casts s to bf16 and transposes and casts W on the host
  (on the extended reals a change of format is the identity, so the staged arrays are s itself and W with its axes
  swapped: Proof/Staged.lean), then on a 2 × 16 grid computes, for one batch and 1024 atoms at a time, the same two
  products into zero accumulators plus the bias (Proof/Payload.lean); each point writes one tile of the result, the
  tiles cover it, and each is the matching tile of `logits` (Proof/Tiles.lean). The two sums are grouped the same way
  on both sides and a zero accumulator adds nothing, so the equality needs no law that can fail at an infinity and the
  finiteness of the inputs is never used. The idealization rewrote no operation, so there is nothing to preserve
  beyond the program's own text.
-/
import proofs.«129406_j90228672954830_2_alg».proof.Defs
import proofs.«129406_j90228672954830_2_alg».proof.Proof.Gen.Kernel
import proofs.«129406_j90228672954830_2_alg».proof.Proof.Gen.Kernel.Skeleton
import proofs.«129406_j90228672954830_2_alg».proof.Proof.Gen.Kernel.Launch
import proofs.«129406_j90228672954830_2_alg».proof.Proof.Gen.Kernel.Points
import proofs.«129406_j90228672954830_2_alg».proof.Proof.Gen.Kernel.Frame
import proofs.«129406_j90228672954830_2_alg».proof.Proof.Gen.KernelIdeal
import proofs.«129406_j90228672954830_2_alg».proof.Proof.Gen.KernelIdeal.Skeleton
import proofs.«129406_j90228672954830_2_alg».proof.Proof.Gen.KernelIdeal.Launch
import proofs.«129406_j90228672954830_2_alg».proof.Proof.Gen.KernelIdeal.Points
import proofs.«129406_j90228672954830_2_alg».proof.Proof.Gen.KernelIdeal.Frame
import proofs.«129406_j90228672954830_2_alg».proof.Proof.Gen.ReferenceIdeal
import proofs.«129406_j90228672954830_2_alg».proof.Proof.Gen.Pre_finite_inputs
import proofs.«129406_j90228672954830_2_alg».proof.Proof.Gen.KernelIdeal.Value
import proofs.«129406_j90228672954830_2_alg».proof.Proof.Gen.ReferenceIdeal.Run
import proofs.«129406_j90228672954830_2_alg».proof.Proof.Gen.ReferenceIdeal.Read
import proofs.«129406_j90228672954830_2_alg».proof.Proof.Spec
import proofs.«129406_j90228672954830_2_alg».proof.Proof.RefIsSpec
import proofs.«129406_j90228672954830_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is five host operations, none of which writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments, both programs end with `logits` of those arguments. -/
theorem algebraic : Cert.algebraic_KernelIdeal_ReferenceIdeal := by
  intro m ρ m' ρ' _ hagree
  refine ⟨fun c => Cert.AtomLogits.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.AtomLogits.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.AtomLogits.Reference.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
